-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192x8192 : Shape := ⟨2, ![8192, 8192]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩
abbrev S1x1024 : Shape := ⟨2, ![1, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S8192x512, .f32⟩
  | .hbm, ⟨1, _⟩ => ⟨S8192x512, .bf16⟩
  | .hbm, ⟨2, _⟩ => ⟨S8192x8192, .f32⟩
  | .local _ .vmem, ⟨0, _⟩ => ⟨S8192x512, .bf16⟩
  | .local _ .vmem, ⟨1, _⟩ => ⟨S1024x1024, .f32⟩
  | .local _ .vmem, ⟨2, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_mult2 (i : grid0.Coords) : BitVec 32 :=
  let arg1 : BitVec 32 := BitVec.ofNat 32 (i 1).val
  let c1024_i32_0 : BitVec 32 := 1024#32
  let v2 : BitVec 32 := Scalar.muli arg1 c1024_i32_0
  v2
def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let v4 : Index := Scalar.indexCast v1
  let c0 : Index := 0#32
  ![v4.toNat, 0]
def k0_off2 (i : grid0.Coords) : Fin 2 → Nat :=
  let arg1 : BitVec 32 := BitVec.ofNat 32 (i 1).val
  let c1024_i32_0 : BitVec 32 := 1024#32
  let v2 : BitVec 32 := Scalar.muli arg1 c1024_i32_0
  let v3 : BitVec 32 := v2
  let v7 : Index := Scalar.indexCast v3
  let c0_1 : Index := 0#32
  ![v7.toNat, 0]
def k0_cond1 (i : grid0.Coords) : BitVec 1 :=
  let arg0 : BitVec 32 := BitVec.ofNat 32 (i 0).val
  let arg1 : BitVec 32 := BitVec.ofNat 32 (i 1).val
  let v30 : BitVec 1 := Scalar.cmpi .eq arg0 arg1
  let v31 : BitVec 32 := Scalar.extui v30
  let c0_i32 : BitVec 32 := 0#32
  let v32 : BitVec 1 := Scalar.cmpi .ne v31 c0_i32
  v32

def k0_cond2 (i : grid0.Coords) : BitVec 1 :=
  let arg0 : BitVec 32 := BitVec.ofNat 32 (i 0).val
  let arg1 : BitVec 32 := BitVec.ofNat 32 (i 1).val
  let v33 : BitVec 1 := Scalar.cmpi .ne arg0 arg1
  let v34 : BitVec 32 := Scalar.extui v33
  let c0_i32_6 : BitVec 32 := 0#32
  let v35 : BitVec 1 := Scalar.cmpi .ne v34 c0_i32_6
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bitsLt_bf16_f32 : FTy.bits .bf16 < FTy.bits .f32
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  transposes_S1024x1_p1_0_S1x1024 : S1024x1.Transposes [1, 0] S1x1024
  transposes_S1024x512_p1_0_S512x1024 : S1024x512.Transposes [1, 0] S512x1024
  broadcasts_S1024x1_S1024x1024 : S1024x1.Broadcasts S1024x1024
  broadcasts_S1x1024_S1024x1024 : S1x1024.Broadcasts S1024x1024
  iota_S1024x1_d0_w32 : S1024x1.Iotas .tc 32 [0]
  iota_S1x1024_d1_w32 : S1x1024.Iotas .tc 32 [1]
  inb_S1024x1024_S1024x1024_0_0 : ∀ a, (![0, 0] : Fin 2 → Nat) a + S1024x1024.size a ≤ S1024x1024.size a
  h_S1024x1024 : 0 < S1024x1024.numel
  dot_S1024x512_S512x1024_S1024x1024_1_0_0_1_n_n_wf : DotDims.WF S1024x512 S512x1024 S1024x1024 [1] [0] [0] [1] [] []
  hrank0 : 0 < grid0.rank
  k0_mult1_dvd : ∀ i : grid0.Coords, 1024 ∣ (k0_mult1 i).toNat
  k0_mult2_dvd : ∀ i : grid0.Coords, 1024 ∣ (k0_mult2 i).toNat
  k0_off1_inb : ∀ i : grid0.Coords, ∀ a, (k0_off1 i) a + S1024x512.size a ≤ S8192x512.size a
  k0_off2_inb : ∀ i : grid0.Coords, ∀ a, (k0_off2 i) a + S1024x512.size a ≤ S8192x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S8192x512.size a
  hwx0_0 : ∀ i : grid0.Coords, EltTy.bits .bf16 = 32 ∨ (Rect.block (s := S8192x512) S8192x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S8192x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S512x8192 : Shape := ⟨2, ![512, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S512x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .i1⟩
  | .hbm, ⟨28, _⟩ => ⟨S8192x8192, .f32⟩
  | .hbm, ⟨29, _⟩ => ⟨S_, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.BodyBits.lean ====
/-
  The frame of the pairwise negative-distance kernel as printed (read at any float instance; cited at the
  word-level one), and what each grid point writes back.

  The grid is 8 × 8 over the [8192, 8192] result in [1024, 1024] tiles; the whole bf16 feature matrix is one resident
  block. At point (i, j) the body loads the row tile (rows 1024·i …) and the column tile (rows 1024·j …) of the
  feature matrix and computes D = sqrt(max(|a_r|² + |b_c|² − 2·a_r·b_c, 0)). Exactly one of its two conditionals
  fires: on the eight tiles with i = j it stores 0 − (0 where the global row and column numbers agree, D elsewhere);
  on the other fifty-six it stores 0 − D. Either store covers the whole tile, so the tile the point writes back is a
  function of the feature matrix alone, whatever the output buffer held before.
-/
import proofs.«144027_j18416819765837_2_alg».proof.Proof.Gen.Kernel.Frame
import proofs.«144027_j18416819765837_2_alg».proof.Proof.Gen.Kernel.Skeleton
import Idealize.ShloMosaic.Lib.Pipeline.Frame

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases of a grid point -/

/-- At every grid point exactly one of the body's two conditions holds: the tile is on the diagonal (i = j) or
    it is not. Decided over the 64 points. -/
theorem diag_or_off : ∀ t : Fin cfg0.N,
    (k0_cond1 (grid0.coords t) = 1#1 ∧ ¬ k0_cond2 (grid0.coords t) = 1#1)
      ∨ (¬ k0_cond1 (grid0.coords t) = 1#1 ∧ k0_cond2 (grid0.coords t) = 1#1) :=
  (by decide +kernel : ∀ t : Fin grid0.N,
    (k0_cond1 (grid0.coords t) = 1#1 ∧ ¬ k0_cond2 (grid0.coords t) = 1#1)
      ∨ (¬ k0_cond1 (grid0.coords t) = 1#1 ∧ k0_cond2 (grid0.coords t) = 1#1))

/-! ## The rectangles the body reads and writes through -/

/-- The row tile of the feature matrix at point `i`: rows 1024·i₀ … 1024·i₀ + 1023, all 512 columns. -/
abbrev rRow (i : grid0.Coords) : Rect S8192x512 := Rect.unit (s := S8192x512) (k0_off1 i) S1024x512.size (k0_off1_inb i)
/-- The column tile: rows 1024·i₁ … 1024·i₁ + 1023. -/
abbrev rCol (i : grid0.Coords) : Rect S8192x512 := Rect.unit (s := S8192x512) (k0_off2 i) S1024x512.size (k0_off2_inb i)
/-- The whole output tile. -/
abbrev rOut : Rect S1024x1024 := Rect.unit (s := S1024x1024) ![0, 0] S1024x1024.size inb_S1024x1024_S1024x1024_0_0

/-! ## What the body leaves in the output tile's buffer -/

/-- On a diagonal tile: the one store of the masked, negated distances. -/
def outDiag (i : grid0.Coords) (x0 : Vec F S8192x512 .bf16) : Vec F S1024x1024 .f32 :=
  View.canon [⟨rOut, k0_pay2 i (View.ld x0 (rRow i)) (View.ld x0 (rCol i))⟩]
/-- Off the diagonal: the one store of the negated distances. -/
def outOff (i : grid0.Coords) (x0 : Vec F S8192x512 .bf16) : Vec F S1024x1024 .f32 :=
  View.canon [⟨rOut, k0_pay3 (View.ld x0 (rRow i)) (View.ld x0 (rCol i))⟩]

/-- The one store covers the tile. -/
theorem cover_out (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple, case by case -/

set_option maxHeartbeats 2000000 in
/-- On a diagonal tile the body, on whole staging memrefs — the features' at contents `x0`, the output's at
    anything — runs to the continuation holding the features' as they were and the output's at `outDiag`. -/
theorem sound_kernel_diag (c : Dev nD) (E : Set ℕ) (i : grid0.Coords) (hc1 : k0_cond1 i = 1#1) (hc2 : ¬ k0_cond2 i = 1#1)
    (arg2 : Memref sig .tc .vmem S8192x512 .bf16) (harg2 : arg2.IsWhole) (arg3 : Memref sig .tc .vmem S1024x1024 .f32) (harg3 : arg3.IsWhole)
    (x0 : Vec F S8192x512 .bf16) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (outDiag i x0)) -∗ K ⟨⟩))
      ⊢ wp frame (wpE (defs₀ (F := F)) Variants.none c none) E (cc0__pairwise_neg_l2_kernel i arg2 harg2 arg3 harg3) K := by
  simp only [cc0__pairwise_neg_l2_kernel_eq_skeleton]; unfold cc0__pairwise_neg_l2_kernel_skel
  unfold owns
  iintro ⟨⟨%f0, %hf0, H0⟩, ⟨%d1, %f1, -, H1⟩, Hk⟩
  subst hf0
  sl_exec (disch := first | exact hc1 | exact hc2)
  sl_step
  iapply Hk
  isplitl [H0]
  · iexists f0; isplitr; · ipureintro; rfl
    iexact H0
  iexists _; isplitr
  swap; · iexact H1
  ipureintro
  exact View.read_writes_eq_canon _ _ _ (cover_out _)

set_option maxHeartbeats 2000000 in
/-- Off the diagonal, likewise, to `outOff`. -/
theorem sound_kernel_off (c : Dev nD) (E : Set ℕ) (i : grid0.Coords) (hc1 : ¬ k0_cond1 i = 1#1) (hc2 : k0_cond2 i = 1#1)
    (arg2 : Memref sig .tc .vmem S8192x512 .bf16) (harg2 : arg2.IsWhole) (arg3 : Memref sig .tc .vmem S1024x1024 .f32) (harg3 : arg3.IsWhole)
    (x0 : Vec F S8192x512 .bf16) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (outOff i x0)) -∗ K ⟨⟩))
      ⊢ wp frame (wpE (defs₀ (F := F)) Variants.none c none) E (cc0__pairwise_neg_l2_kernel i arg2 harg2 arg3 harg3) K := by
  simp only [cc0__pairwise_neg_l2_kernel_eq_skeleton]; unfold cc0__pairwise_neg_l2_kernel_skel
  unfold owns
  iintro ⟨⟨%f0, %hf0, H0⟩, ⟨%d1, %f1, -, H1⟩, Hk⟩
  subst hf0
  sl_exec (disch := first | exact hc1 | exact hc2)
  sl_step
  iapply Hk
  isplitl [H0]
  · iexists f0; isplitr; · ipureintro; rfl
    iexact H0
  iexists _; isplitr
  swap; · iexact H1
  ipureintro
  exact View.read_writes_eq_canon _ _ _ (cover_out _)

/-! ## The pipeline's proof data -/

/-- The tile point `t` leaves in the output's buffer: by the case of the point. -/
def tileAt (c : Dev nD) (t : Fin cfg0.N) : Vec F S1024x1024 .f32 :=
  if k0_cond1 (grid0.coords t) = 1#1 then outDiag (grid0.coords t) (iblk m c 0 t) else outOff (grid0.coords t) (iblk m c 0 t)

/-- The proof data on core `c`: the arrays as the region finds them; after the body at point `t` the features'
    buffer at its (one) block and the output's at the point's tile; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => tileAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = tileAt m c t := by dsimp only [dats]

/-- The features' staging buffer holds the whole matrix at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the features' memref holds the matrix, the point is of one of the two cases, and that
    case's triple applies; the invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  rcases diag_or_off t with ⟨h1, h2⟩ | ⟨h1, h2⟩
  · iapply (sound_kernel_diag c Set.univ (grid0.coords t) h1 h2 _ _ _ _ (iblk m c 0 t) _)
    isplitl [H0]; · iexact H0
    isplitl [H1]; · iexists _; iexact H1
    iintro ⟨H0, H1⟩
    isplitl [HΦ]; · iexact HΦ
    isplitl [Ho]; · iexact Ho
    isplitl [H0]; · iexact H0
    unfold tileAt; rw [if_pos h1]
    iexact H1
  · iapply (sound_kernel_off c Set.univ (grid0.coords t) h1 h2 _ _ _ _ (iblk m c 0 t) _)
    isplitl [H0]; · iexact H0
    isplitl [H1]; · iexists _; iexact H1
    iintro ⟨H0, H1⟩
    isplitl [HΦ]; · iexact HΦ
    isplitl [Ho]; · iexact Ho
    isplitl [H0]; · iexact H0
    unfold tileAt; rw [if_neg h1]
    iexact H1

/-- The library's body obligation, at every point. The output window is written back at every point, so whether
    the configuration calls a point idle for it or not, what the body must leave there is the point's tile. -/
theorem body_obligation (c : Dev nD) : BodyObligation (dats (F := F) m 0 c) (defs₀ (F := F)) Variants.none () Set.univ := fun t => by
  have hfl : (cfg0.win 1).flush t = true := flush0_1 t
  rw [bigSep_W0, bigSep_W0]
  generalize cfg0.idle 1 (cfg0.grid.coords t) = b
  cases b
  · exact sound_body m c t
  · rw [hfl]
    exact sound_body m c t

/-! ## The run and the frame -/

set_option backward.isDefEq.respectTransparency.types false in
/-- From any memory with zero counters every weakly fair execution of @main terminates, and every final state has
    the result array at what the proof data's tiles make of it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves the feature matrix as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Gen

end
-- ==== Proof.BodyIdeal.lean ====
/-
  The frame of the idealized pairwise negative-distance kernel, and what each grid point writes back.

  The grid is 8 × 8 over the [8192, 8192] result in [1024, 1024] tiles; the whole bf16 feature matrix is one resident
  block. At point (i, j) the body loads the row tile (rows 1024·i …) and the column tile (rows 1024·j …) of the
  feature matrix and computes D = sqrt(max(|a_r|² + |b_c|² − 2·a_r·b_c, 0)). Exactly one of its two conditionals
  fires: on the eight tiles with i = j it stores 0 − (0 where the global row and column numbers agree, D elsewhere);
  on the other fifty-six it stores 0 − D. Either store covers the whole tile, so the tile the point writes back is a
  function of the feature matrix alone, whatever the output buffer held before.
-/
import proofs.«144027_j18416819765837_2_alg».proof.Proof.Gen.KernelIdeal.Frame
import proofs.«144027_j18416819765837_2_alg».proof.Proof.Gen.KernelIdeal.Skeleton
import Idealize.ShloMosaic.Lib.Pipeline.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases of a grid point -/

/-- At every grid point exactly one of the body's two conditions holds: the tile is on the diagonal (i = j) or
    it is not. Decided over the 64 points. -/
theorem diag_or_off : ∀ t : Fin cfg0.N,
    (k0_cond1 (grid0.coords t) = 1#1 ∧ ¬ k0_cond2 (grid0.coords t) = 1#1)
      ∨ (¬ k0_cond1 (grid0.coords t) = 1#1 ∧ k0_cond2 (grid0.coords t) = 1#1) :=
  (by decide +kernel : ∀ t : Fin grid0.N,
    (k0_cond1 (grid0.coords t) = 1#1 ∧ ¬ k0_cond2 (grid0.coords t) = 1#1)
      ∨ (¬ k0_cond1 (grid0.coords t) = 1#1 ∧ k0_cond2 (grid0.coords t) = 1#1))

/-! ## The rectangles the body reads and writes through -/

/-- The row tile of the feature matrix at point `i`: rows 1024·i₀ … 1024·i₀ + 1023, all 512 columns. -/
abbrev rRow (i : grid0.Coords) : Rect S8192x512 := Rect.unit (s := S8192x512) (k0_off1 i) S1024x512.size (k0_off1_inb i)
/-- The column tile: rows 1024·i₁ … 1024·i₁ + 1023. -/
abbrev rCol (i : grid0.Coords) : Rect S8192x512 := Rect.unit (s := S8192x512) (k0_off2 i) S1024x512.size (k0_off2_inb i)
/-- The whole output tile. -/
abbrev rOut : Rect S1024x1024 := Rect.unit (s := S1024x1024) ![0, 0] S1024x1024.size inb_S1024x1024_S1024x1024_0_0

/-! ## What the body leaves in the output tile's buffer -/

/-- On a diagonal tile: the one store of the masked, negated distances. -/
def outDiag (i : grid0.Coords) (x0 : Vec F S8192x512 .bf16) : Vec F S1024x1024 .f32 :=
  View.canon [⟨rOut, k0_pay2 i (View.ld x0 (rRow i)) (View.ld x0 (rCol i))⟩]
/-- Off the diagonal: the one store of the negated distances. -/
def outOff (i : grid0.Coords) (x0 : Vec F S8192x512 .bf16) : Vec F S1024x1024 .f32 :=
  View.canon [⟨rOut, k0_pay3 (View.ld x0 (rRow i)) (View.ld x0 (rCol i))⟩]

/-- The one store covers the tile. -/
theorem cover_out (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple, case by case -/

set_option maxHeartbeats 2000000 in
/-- On a diagonal tile the body, on whole staging memrefs — the features' at contents `x0`, the output's at
    anything — runs to the continuation holding the features' as they were and the output's at `outDiag`. -/
theorem sound_kernel_diag (c : Dev nD) (E : Set ℕ) (i : grid0.Coords) (hc1 : k0_cond1 i = 1#1) (hc2 : ¬ k0_cond2 i = 1#1)
    (arg2 : Memref sig .tc .vmem S8192x512 .bf16) (harg2 : arg2.IsWhole) (arg3 : Memref sig .tc .vmem S1024x1024 .f32) (harg3 : arg3.IsWhole)
    (x0 : Vec F S8192x512 .bf16) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (outDiag i x0)) -∗ K ⟨⟩))
      ⊢ wp frame (wpE (defs₀ (F := F)) Variants.none c none) E (cc0__pairwise_neg_l2_kernel i arg2 harg2 arg3 harg3) K := by
  simp only [cc0__pairwise_neg_l2_kernel_eq_skeleton]; unfold cc0__pairwise_neg_l2_kernel_skel
  unfold owns
  iintro ⟨⟨%f0, %hf0, H0⟩, ⟨%d1, %f1, -, H1⟩, Hk⟩
  subst hf0
  sl_exec (disch := first | exact hc1 | exact hc2)
  sl_step
  iapply Hk
  isplitl [H0]
  · iexists f0; isplitr; · ipureintro; rfl
    iexact H0
  iexists _; isplitr
  swap; · iexact H1
  ipureintro
  exact View.read_writes_eq_canon _ _ _ (cover_out _)

set_option maxHeartbeats 2000000 in
/-- Off the diagonal, likewise, to `outOff`. -/
theorem sound_kernel_off (c : Dev nD) (E : Set ℕ) (i : grid0.Coords) (hc1 : ¬ k0_cond1 i = 1#1) (hc2 : k0_cond2 i = 1#1)
    (arg2 : Memref sig .tc .vmem S8192x512 .bf16) (harg2 : arg2.IsWhole) (arg3 : Memref sig .tc .vmem S1024x1024 .f32) (harg3 : arg3.IsWhole)
    (x0 : Vec F S8192x512 .bf16) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (outOff i x0)) -∗ K ⟨⟩))
      ⊢ wp frame (wpE (defs₀ (F := F)) Variants.none c none) E (cc0__pairwise_neg_l2_kernel i arg2 harg2 arg3 harg3) K := by
  simp only [cc0__pairwise_neg_l2_kernel_eq_skeleton]; unfold cc0__pairwise_neg_l2_kernel_skel
  unfold owns
  iintro ⟨⟨%f0, %hf0, H0⟩, ⟨%d1, %f1, -, H1⟩, Hk⟩
  subst hf0
  sl_exec (disch := first | exact hc1 | exact hc2)
  sl_step
  iapply Hk
  isplitl [H0]
  · iexists f0; isplitr; · ipureintro; rfl
    iexact H0
  iexists _; isplitr
  swap; · iexact H1
  ipureintro
  exact View.read_writes_eq_canon _ _ _ (cover_out _)

/-! ## The pipeline's proof data -/

/-- The tile point `t` leaves in the output's buffer: by the case of the point. -/
def tileAt (c : Dev nD) (t : Fin cfg0.N) : Vec F S1024x1024 .f32 :=
  if k0_cond1 (grid0.coords t) = 1#1 then outDiag (grid0.coords t) (iblk m c 0 t) else outOff (grid0.coords t) (iblk m c 0 t)

/-- The proof data on core `c`: the arrays as the region finds them; after the body at point `t` the features'
    buffer at its (one) block and the output's at the point's tile; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => tileAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = tileAt m c t := by dsimp only [dats]

/-- The features' staging buffer holds the whole matrix at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the features' memref holds the matrix, the point is of one of the two cases, and that
    case's triple applies; the invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  rcases diag_or_off t with ⟨h1, h2⟩ | ⟨h1, h2⟩
  · iapply (sound_kernel_diag c Set.univ (grid0.coords t) h1 h2 _ _ _ _ (iblk m c 0 t) _)
    isplitl [H0]; · iexact H0
    isplitl [H1]; · iexists _; iexact H1
    iintro ⟨H0, H1⟩
    isplitl [HΦ]; · iexact HΦ
    isplitl [Ho]; · iexact Ho
    isplitl [H0]; · iexact H0
    unfold tileAt; rw [if_pos h1]
    iexact H1
  · iapply (sound_kernel_off c Set.univ (grid0.coords t) h1 h2 _ _ _ _ (iblk m c 0 t) _)
    isplitl [H0]; · iexact H0
    isplitl [H1]; · iexists _; iexact H1
    iintro ⟨H0, H1⟩
    isplitl [HΦ]; · iexact HΦ
    isplitl [Ho]; · iexact Ho
    isplitl [H0]; · iexact H0
    unfold tileAt; rw [if_neg h1]
    iexact H1

/-- The library's body obligation, at every point. The output window is written back at every point, so whether
    the configuration calls a point idle for it or not, what the body must leave there is the point's tile. -/
theorem body_obligation (c : Dev nD) : BodyObligation (dats (F := F) m 0 c) (defs₀ (F := F)) Variants.none () Set.univ := fun t => by
  have hfl : (cfg0.win 1).flush t = true := flush0_1 t
  rw [bigSep_W0, bigSep_W0]
  generalize cfg0.idle 1 (cfg0.grid.coords t) = b
  cases b
  · exact sound_body m c t
  · rw [hfl]
    exact sound_body m c t

/-! ## The run and the frame -/

set_option backward.isDefEq.respectTransparency.types false in
/-- From any memory with zero counters every weakly fair execution of @main terminates, and every final state has
    the result array at what the proof data's tiles make of it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves the feature matrix as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Gen

end
-- ==== Proof.DistAlgebra.lean ====
/-
  The arithmetic both programs share, on the extended reals.

  For two rows a, b the clamped squared distance is d²(a, b) = max(|a|² + |b|² − 2·⟨a, b⟩, 0). The kernel returns
  0 − √d² (and 0 − 0 where a row meets itself on a diagonal tile); the reference returns −(√d² if d² > 0, else 0),
  the root taken of (d² if d² > 0, else 1). The two agree for every pair of extended-real rows because d² ≥ 0 and
  √0 = 0: no finiteness is needed off the diagonal. A row against itself needs it: for a row of reals
  |a|² + |a|² − 2·|a|² = 0, so d² = 0 and both sides are 0; with an infinite entry the left side would be ∞ − ∞.
-/
import Idealize.ShloMosaic.PureOps.Ideal
import Idealize.ShloMosaic.PureOps.Ideal.Laws
import Idealize.ShloMosaic.Lib.ValueIdx

noncomputable section

namespace Cert.PairDist

open Idealize.ShloMosaic

/-- The literal 2.0 denotes the real 2. -/
theorem ofBits_two : Ideal.ofBits .f32 0x40000000#32 = ((2 : ℝ) : EReal) := by
  simp [Ideal.ofBits, Ideal.ieee, -EReal.coe_mul]; norm_num

/-- The root of a real: −∞ below zero, the real root otherwise; so √0 = 0. -/
theorem sqrt_coe (r : ℝ) : Ideal.sqrt (r : EReal) = if r < 0 then ⊥ else ((Real.sqrt r : ℝ) : EReal) := rfl

theorem sqrt_zero : Ideal.sqrt 0 = 0 := by
  rw [← EReal.coe_zero, sqrt_coe]; simp

variable {K : Type} [Fintype K]

/-- The clamped squared distance of two rows, as both programs spell it (the factor 2.0 kept as its pattern). -/
def d2 (a b : K → EReal) : EReal :=
  max ((∑ k, a k * a k + ∑ k, b k * b k) - Ideal.ofBits .f32 0x40000000#32 * ∑ k, a k * b k) 0

/-- The reference's guarded root is the plain root of a clamped argument: with d = max z 0,
    (√(d if d > 0 else e) if d > 0 else 0) = √d, whatever e is. -/
theorem guarded_sqrt (z e : EReal) :
    Scalar.select (Ideal.cmp .ogt (max z 0) 0) (Ideal.sqrt (Scalar.select (Ideal.cmp .ogt (max z 0) 0) (max z 0) e)) 0
      = Ideal.sqrt (max z 0) := by
  by_cases h : (0 : EReal) < max z 0
  · have hc : Ideal.cmp .ogt (max z 0) 0 = 1#1 := by simp [Ideal.cmp, h]
    rw [hc, ValueIdx.select_one, ValueIdx.select_one]
  · have hc : Ideal.cmp .ogt (max z 0) 0 = 0#1 := by simp [Ideal.cmp, h]
    have h0 : max z 0 = 0 := le_antisymm (not_lt.mp h) (le_max_right _ _)
    rw [hc, ValueIdx.select_zero, h0, sqrt_zero]

/-- Off the diagonal: the kernel's 0 − √d² is the reference's −(guarded root), for any rows. -/
theorem off_entry (a b : K → EReal) (e : EReal) :
    (0 : EReal) - Ideal.sqrt (d2 a b)
      = -(Scalar.select (Ideal.cmp .ogt (d2 a b) 0) (Ideal.sqrt (Scalar.select (Ideal.cmp .ogt (d2 a b) 0) (d2 a b) e)) 0) := by
  unfold d2
  rw [guarded_sqrt, zero_sub]

/-- A finite sum of reals is the real sum. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A row of reals is at clamped squared distance 0 from itself. -/
theorem d2_self (a : K → EReal) (hfin : ∀ k, ∃ x : ℝ, a k = (x : EReal)) : d2 a a = 0 := by
  choose x hx using hfin
  unfold d2
  have hs : ∑ k, a k * a k = ((∑ k, x k * x k : ℝ) : EReal) := by
    rw [← sum_coe]
    exact Finset.sum_congr rfl fun k _ => by rw [hx k, EReal.coe_mul]
  rw [hs, ofBits_two, ← EReal.coe_add, ← EReal.coe_mul, ← EReal.coe_sub]
  have : (∑ k, x k * x k + ∑ k, x k * x k - 2 * ∑ k, x k * x k : ℝ) = 0 := by ring
  rw [this]
  simp

/-- On the diagonal: the kernel's 0 − 0 is the reference's entry, for a row of reals. -/
theorem diag_entry (a : K → EReal) (hfin : ∀ k, ∃ x : ℝ, a k = (x : EReal)) (e : EReal) :
    (0 : EReal) - 0
      = -(Scalar.select (Ideal.cmp .ogt (d2 a a) 0) (Ideal.sqrt (Scalar.select (Ideal.cmp .ogt (d2 a a) 0) (d2 a a) e)) 0) := by
  rw [d2_self a hfin]
  have hc : Ideal.cmp .ogt (0 : EReal) 0 = 0#1 := by simp [Ideal.cmp]
  rw [hc, ValueIdx.select_zero]
  simp

end Cert.PairDist

end
-- ==== Proof.TileAt.lean ====
/-
  The body's arithmetic read at an index of the tile.

  For a row tile a and a column tile b (each [1024, 512]) the body's distance tile has, at (p, q),
  √(max(|a_p|² + |b_q|² − 2·⟨a_p, b_q⟩, 0)): the lane sums of the squares give |a_p|² as a column and |b_q|² — after a
  transpose — as a row, the matrix product of a with b transposed gives ⟨a_p, b_q⟩, and the two broadcasts put the
  column and the row over the tile. Off the diagonal the body stores 0 minus that. On a diagonal tile it first
  replaces the entry by 0 where the global row number 1024·i + p equals the global column number 1024·j + q — which,
  as i = j there, is where p = q.
-/
import proofs.«144027_j18416819765837_2_alg».proof.Proof.Gen.KernelIdeal.Skeleton
import proofs.«144027_j18416819765837_2_alg».proof.Proof.DistAlgebra
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen Idealize.ShloMosaic Idealize.ShloMosaic.ValueIdx

/-! ## The pieces of the distance tile, named -/

/-- A tile's squared row norms, as a column: the lane sum of the squares, reshaped [1024] → [1024, 1]. -/
def sqCol (x : FVec Ideal S1024x512 .bf16) : FVec Ideal S1024x1 .f32 :=
  shapeCast S1024x1 (multiReduction .add [1] S1024
    (mulf (extf .f32 (shapeCast S1024x512 x shapeCasts_S1024x512_S1024x512) bitsLt_bf16_f32)
      (extf .f32 (shapeCast S1024x512 x shapeCasts_S1024x512_S1024x512) bitsLt_bf16_f32))
    0x00000000#32 reduces_S1024x512_S1024 (.inl rfl) rfl) shapeCasts_S1024_S1024x1

/-- The tile's Gram block: a times b transposed, into a zero accumulator. -/
def gramTile (a b : FVec Ideal S1024x512 .bf16) : FVec Ideal S1024x1024 .f32 :=
  matmul dot_S1024x512_S512x1024_S1024x1024_1_0_0_1_n_n none (shapeCast S1024x512 a shapeCasts_S1024x512_S1024x512)
    (transpose S512x1024 [1, 0] (shapeCast S1024x512 b shapeCasts_S1024x512_S1024x512) transposes_S1024x512_p1_0_S512x1024)
    (constant S1024x1024 .f32 0x00000000#32)

/-- The distance tile is the root of the clamped combination of those pieces (the printed chain, regrouped). -/
theorem pay1_form (a b : FVec Ideal S1024x512 .bf16) :
    k0_pay1 (F := Ideal) a b
      = sqrt (maximumf (subf (addf (broadcastTo S1024x1024 (sqCol a) broadcasts_S1024x1_S1024x1024)
            (broadcastTo S1024x1024 (transpose S1x1024 [1, 0] (sqCol b) transposes_S1024x1_p1_0_S1x1024) broadcasts_S1x1024_S1024x1024))
          (mulf (broadcast S1024x1024 (Scalar.ofBits (F := Ideal) .f32 0x40000000#32)) (gramTile a b)))
        (broadcast S1024x1024 (Scalar.ofBits (F := Ideal) .f32 0x00000000#32))) := rfl

/-! ## Each piece at an index -/

/-- Inserting lane k into row p of the reduced index gives (p, k). -/
theorem lift_row (p : Fin 1024) (k : Fin 512) :
    reduces_S1024x512_S1024.lift (ix1 p) k = ix2 p k :=
  funext fun a => Fin.ext (by match a with | ⟨0, _⟩ => rfl | ⟨1, _⟩ => rfl)

/-- The column of squared norms at row p: the sum over the lanes of the squares. -/
theorem sqCol_at (x : FVec Ideal S1024x512 .bf16) (p : Fin 1024) (z : Fin 1) :
    sqCol x (ix2 p z) = ∑ k : Fin 512, x (ix2 p k) * x (ix2 p k) := by
  have hs : shapeCast S1024x512 x shapeCasts_S1024x512_S1024x512 = x := shapeCast_self x _
  unfold sqCol
  rw [hs]
  refine (shapeCast_apply _ shapeCasts_S1024_S1024x1 (ix2 p z) (ix1 p) ?_).trans ?_
  · rw [Shape.rowMajor_val_one, Shape.rowMajor_val_two]
    show p.val = p.val * 1 + z.val
    have := z.isLt; omega
  · refine (Ideal.multiReduction_add_single _ 0x00000000#32 reduces_S1024x512_S1024 (.inl rfl) rfl (ix1 p)).trans ?_
    refine Finset.sum_congr rfl fun k _ => ?_
    exact congrArg (fun j => x j * x j) (lift_row p k)

/-- The matrix product's operand indices at output (p, q) and contraction index κ: the left operand is read at
    (p, κ) and the right one at (κ, q). -/
theorem lhs_0 (j : S1024x1024.Idx) (κ : dot_S1024x512_S512x1024_S1024x1024_1_0_0_1_n_n.contr.Idx) :
    (dot_S1024x512_S512x1024_S1024x1024_1_0_0_1_n_n.lhsIdx j κ 0).val = (j 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_1 (j : S1024x1024.Idx) (κ : dot_S1024x512_S512x1024_S1024x1024_1_0_0_1_n_n.contr.Idx) :
    (dot_S1024x512_S512x1024_S1024x1024_1_0_0_1_n_n.lhsIdx j κ 1).val = (κ ⟨0, by decide⟩).val :=
  dot_S1024x512_S512x1024_S1024x1024_1_0_0_1_n_n.lhsIdx_val_of_single rfl j κ
theorem rhs_0 (j : S1024x1024.Idx) (κ : dot_S1024x512_S512x1024_S1024x1024_1_0_0_1_n_n.contr.Idx) :
    (dot_S1024x512_S512x1024_S1024x1024_1_0_0_1_n_n.rhsIdx j κ 0).val = (κ ⟨0, by decide⟩).val :=
  dot_S1024x512_S512x1024_S1024x1024_1_0_0_1_n_n.rhsIdx_val_of_single rfl j κ
theorem rhs_1 (j : S1024x1024.Idx) (κ : dot_S1024x512_S512x1024_S1024x1024_1_0_0_1_n_n.contr.Idx) :
    (dot_S1024x512_S512x1024_S1024x1024_1_0_0_1_n_n.rhsIdx j κ 1).val = (j 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The Gram block at (p, q): the sum over the lanes of a's row p times b's row q. -/
theorem gramTile_at (a b : FVec Ideal S1024x512 .bf16) (p q : Fin 1024) :
    gramTile a b (ix2 p q) = ∑ k : Fin 512, a (ix2 p k) * b (ix2 q k) := by
  unfold gramTile
  rw [shapeCast_self, shapeCast_self]
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k :=
    funext fun c => Fin.ext (by
      match c with
      | ⟨0, _⟩ => exact lhs_0 _ _
      | ⟨1, _⟩ => exact (lhs_1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q :=
    funext fun c => Fin.ext (by
      match c with
      | ⟨0, _⟩ => exact (rhs_0 _ _).trans hk
      | ⟨1, _⟩ => exact rhs_1 _ _)
  rw [el, er, transpose_ix2_apply]

/-- A column [1024, 1] broadcast over the tile reads, at (p, q), the column at p. -/
theorem broadcast_col_at {α : Type} (v : S1024x1.Idx → α) (p q : Fin 1024) :
    broadcastTo S1024x1024 v broadcasts_S1024x1_S1024x1024 (ix2 p q) = v (ix2 p (0 : Fin 1)) := by
  refine broadcastTo_apply v broadcasts_S1024x1_S1024x1024 (ix2 p q) (ix2 p (0 : Fin 1)) fun ax => ?_
  match ax with
  | ⟨0, _⟩ => show p.val = if (1024 : Nat) = 1 then 0 else p.val; rw [if_neg (by decide)]
  | ⟨1, _⟩ => show 0 = if (1 : Nat) = 1 then 0 else q.val; rw [if_pos rfl]

/-! ## The distance tile and the two stored tiles at an index -/

/-- The distance tile at (p, q) is the root of the clamped squared distance of a's row p and b's row q. -/
theorem pay1_at (a b : FVec Ideal S1024x512 .bf16) (p q : Fin 1024) :
    k0_pay1 (F := Ideal) a b (ix2 p q)
      = Ideal.sqrt (Cert.PairDist.d2 (fun k : Fin 512 => a (ix2 p k)) (fun k : Fin 512 => b (ix2 q k))) := by
  rw [pay1_form]
  show Ideal.sqrt (max ((broadcastTo S1024x1024 (sqCol a) broadcasts_S1024x1_S1024x1024 (ix2 p q)
        + broadcastTo S1024x1024 (transpose S1x1024 [1, 0] (sqCol b) transposes_S1024x1_p1_0_S1x1024) broadcasts_S1x1024_S1024x1024 (ix2 p q))
      - Ideal.ofBits .f32 0x40000000#32 * gramTile a b (ix2 p q)) (Ideal.ofBits .f32 0x00000000#32)) = _
  rw [broadcast_col_at, broadcastTo_1b_ab_apply, transpose_ix2_apply, sqCol_at, sqCol_at, gramTile_at, Ideal.ofBits_zero_f32]
  rfl

/-- Off the diagonal the stored tile is 0 minus the distance tile. -/
theorem pay3_at (a b : FVec Ideal S1024x512 .bf16) (p q : Fin 1024) :
    k0_pay3 (F := Ideal) a b (ix2 p q)
      = 0 - Ideal.sqrt (Cert.PairDist.d2 (fun k : Fin 512 => a (ix2 p k)) (fun k : Fin 512 => b (ix2 q k))) := by
  show Ideal.ofBits .f32 0x00000000#32 - k0_pay1 (F := Ideal) a b (ix2 p q) = _
  rw [pay1_at, Ideal.ofBits_zero_f32]

/-! ## A diagonal tile -/

/-- On the grid the first condition holds only where the two tile coordinates agree. -/
theorem coords_eq_of_cond1 : ∀ i : grid0.Coords, k0_cond1 i = 1#1 → (i 0).val = (i 1).val := by decide +kernel

/-- The mask of a diagonal tile: the global row number 1024·i₀ + p against the global column number 1024·i₁ + q,
    as 32-bit words. -/
def diagMask (i : grid0.Coords) : IVec S1024x1024 1 :=
  cmpi .eq
    (broadcastTo S1024x1024 (addi (iota .tc S1024x1 32 [0] iota_S1024x1_d0_w32)
      (broadcast S1024x1 (Scalar.muli (BitVec.ofNat 32 (i 0).val) 1024#32))) broadcasts_S1024x1_S1024x1024)
    (broadcastTo S1024x1024 (addi (iota .tc S1x1024 32 [1] iota_S1x1024_d1_w32)
      (broadcast S1x1024 (Scalar.muli (BitVec.ofNat 32 (i 1).val) 1024#32))) broadcasts_S1x1024_S1024x1024)

/-- The stored tile on the diagonal: 0 minus (0 under the mask, the distance tile elsewhere). -/
theorem pay2_form (i : grid0.Coords) (a b : FVec Ideal S1024x512 .bf16) :
    k0_pay2 (F := Ideal) i a b
      = subf (broadcast S1024x1024 (Scalar.ofBits (F := Ideal) .f32 0x00000000#32))
          (select (diagMask i) (broadcast S1024x1024 (Scalar.ofBits (F := Ideal) .f32 0x00000000#32)) (k0_pay1 (F := Ideal) a b)) := rfl

/-- With equal tile coordinates the mask at (p, q) is set exactly where p = q: both words add the same multiple of
    1024 to numbers below 1024, far from wrapping. -/
theorem diagMask_at (i : grid0.Coords) (h : (i 0).val = (i 1).val) (p q : Fin 1024) :
    diagMask i (ix2 p q) = if p = q then 1#1 else 0#1 := by
  unfold diagMask
  show IntOp.cmpi .eq (broadcastTo S1024x1024 _ broadcasts_S1024x1_S1024x1024 (ix2 p q))
      (broadcastTo S1024x1024 _ broadcasts_S1x1024_S1024x1024 (ix2 p q)) = _
  rw [broadcast_col_at, broadcastTo_1b_ab_apply]
  show IntOp.cmpi .eq (iota .tc S1024x1 32 [0] iota_S1024x1_d0_w32 (ix2 p (0 : Fin 1)) + Scalar.muli (BitVec.ofNat 32 (i 0).val) 1024#32)
      (iota .tc S1x1024 32 [1] iota_S1x1024_d1_w32 (ix2 (0 : Fin 1) q) + Scalar.muli (BitVec.ofNat 32 (i 1).val) 1024#32) = _
  rw [iota_single_apply, iota_single_apply, h]
  generalize Scalar.muli (BitVec.ofNat 32 (i 1).val) 1024#32 = V
  show BitVec.ofBool (BitVec.ofNat 32 p.val + V == BitVec.ofNat 32 q.val + V) = _
  by_cases hpq : p = q
  · subst hpq; simp
  · rw [if_neg hpq]
    have hne : (BitVec.ofNat 32 p.val + V == BitVec.ofNat 32 q.val + V) = false := by
      rw [beq_eq_false_iff_ne]
      intro e
      have e' := congrArg BitVec.toNat e
      simp only [BitVec.toNat_add, BitVec.toNat_ofNat] at e'
      have hp := p.isLt; have hq := q.isLt; have hV := V.isLt
      exact hpq (Fin.ext (by omega))
    rw [hne]; rfl

/-- On a diagonal tile the stored entry at (p, q) is 0 − 0 where p = q and 0 − the distance elsewhere. -/
theorem pay2_at (i : grid0.Coords) (hi : k0_cond1 i = 1#1) (a b : FVec Ideal S1024x512 .bf16) (p q : Fin 1024) :
    k0_pay2 (F := Ideal) i a b (ix2 p q)
      = if p = q then (0 : EReal) - 0
        else 0 - Ideal.sqrt (Cert.PairDist.d2 (fun k : Fin 512 => a (ix2 p k)) (fun k : Fin 512 => b (ix2 q k))) := by
  rw [pay2_form]
  show Ideal.ofBits .f32 0x00000000#32 - Scalar.select (diagMask i (ix2 p q)) (Ideal.ofBits .f32 0x00000000#32) (k0_pay1 (F := Ideal) a b (ix2 p q)) = _
  rw [diagMask_at i (coords_eq_of_cond1 i hi), pay1_at, Ideal.ofBits_zero_f32]
  by_cases hpq : p = q
  · rw [if_pos hpq, if_pos hpq, select_one]
  · rw [if_neg hpq, if_neg hpq, select_zero]

end Cert.KernelIdeal.TileValue

end
-- ==== Proof.RefAt.lean ====
/-
  The reference read at an index.

  At (r, c) the reference computes the squared norms of rows r and c of the feature matrix (a sum over the 512
  lanes from the initial value 0), the Gram entry (the dot product of row r with row c, the second operand reached
  through a transpose), the clamped squared distance d², and returns −(√(d² if d² > 0 else 1) if d² > 0 else 0).
-/
import proofs.«144027_j18416819765837_2_alg».proof.Proof.Gen.ReferenceIdeal.Read
import proofs.«144027_j18416819765837_2_alg».proof.Proof.DistAlgebra

noncomputable section

namespace Cert.ReferenceIdeal.RefValue

open Cert.ReferenceIdeal Cert.ReferenceIdeal.Gen Cert.ReferenceIdeal.Read Idealize.ShloMosaic Idealize.ShloMosaic.ValueIdx

/-- The squared norm of row r: the sum over the lanes of the squares (the initial value is 0). -/
theorem sq_at (X : (⟨S8192x512, .f32⟩ : BufTy).Contents (Elt Ideal)) (r : Fin 8192) :
    val_main_v1 (F := Ideal) X (ix1 r) = ∑ k : Fin 512, X (ix2 r k) * X (ix2 r k) := by
  rw [val_main_v1_apply, val_main_cst_apply]
  show Ideal.ofBits .f32 0x00000000#32 + _ = _
  rw [Ideal.ofBits_zero_f32, zero_add]
  refine Finset.sum_congr rfl fun k _ => ?_
  rw [val_main_v0_apply]
  have e : idx_main_v1 (ix1 r) k = ix2 r k :=
    funext fun a => Fin.ext (by match a with | ⟨0, _⟩ => rfl | ⟨1, _⟩ => rfl)
  rw [e]; rfl

/-- The Gram entry at (r, c): the sum over the lanes of row r times row c. -/
theorem gram_at (X : (⟨S8192x512, .f32⟩ : BufTy).Contents (Elt Ideal)) (r c : Fin 8192) :
    val_main_v3 (F := Ideal) X (ix2 r c) = ∑ k : Fin 512, X (ix2 r k) * X (ix2 c k) := by
  rw [val_main_v3_apply]
  refine Finset.sum_congr rfl fun k _ => ?_
  rw [val_main_v2_apply]
  have el : lidx_main_v3 (ix2 r c) k = ix2 r k :=
    funext fun a => Fin.ext (by match a with | ⟨0, _⟩ => rfl | ⟨1, _⟩ => rfl)
  have er : idx_main_v2 (ridx_main_v3 (ix2 r c) k) = ix2 c k :=
    funext fun a => Fin.ext (by match a with | ⟨0, _⟩ => rfl | ⟨1, _⟩ => rfl)
  rw [el, er]

/-- The clamped squared distance at (r, c). -/
theorem d2_at (X : (⟨S8192x512, .f32⟩ : BufTy).Contents (Elt Ideal)) (r c : Fin 8192) :
    val_main_v13 (F := Ideal) X (ix2 r c)
      = Cert.PairDist.d2 (fun k : Fin 512 => X (ix2 r k)) (fun k : Fin 512 => X (ix2 c k)) := by
  rw [val_main_v13_apply, val_main_v11_apply, val_main_v8_apply, val_main_v10_apply, val_main_v6_apply, val_main_v7_apply,
    val_main_v4_apply, val_main_v5_apply, val_main_v9_apply, val_main_cst_0_apply, val_main_v12_apply, val_main_cst_1_apply]
  have e6 : idx_main_v4 (idx_main_v6 (ix2 r c)) = ix1 r :=
    funext fun a => Fin.ext (by match a with | ⟨0, _⟩ => rfl)
  have e7 : idx_main_v5 (idx_main_v7 (ix2 r c)) = ix1 c :=
    funext fun a => Fin.ext (by match a with | ⟨0, _⟩ => rfl)
  rw [e6, e7, sq_at, sq_at, gram_at]
  show max ((_ + _) - Ideal.ofBits .f32 0x40000000#32 * _) (Ideal.ofBits .f32 0x00000000#32) = _
  rw [Ideal.ofBits_zero_f32]
  rfl

/-- The reference's entry at (r, c): minus the guarded root of the clamped squared distance. -/
theorem ref_at (X : (⟨S8192x512, .f32⟩ : BufTy).Contents (Elt Ideal)) (r c : Fin 8192) :
    val_main_v21 (F := Ideal) X (ix2 r c)
      = -(Scalar.select (Ideal.cmp .ogt (Cert.PairDist.d2 (fun k : Fin 512 => X (ix2 r k)) (fun k : Fin 512 => X (ix2 c k))) 0)
          (Ideal.sqrt (Scalar.select (Ideal.cmp .ogt (Cert.PairDist.d2 (fun k : Fin 512 => X (ix2 r k)) (fun k : Fin 512 => X (ix2 c k))) 0)
            (Cert.PairDist.d2 (fun k : Fin 512 => X (ix2 r k)) (fun k : Fin 512 => X (ix2 c k))) (Ideal.ofBits .f32 0x3F800000#32))) 0) := by
  rw [val_main_v21_apply, val_main_v20_apply, val_main_v18_apply, val_main_v19_apply, val_main_v16_apply, val_main_v15_apply,
    val_main_v17_apply, val_main_cst_4_apply, val_main_v14_apply, val_main_cst_2_apply, val_main_call0_v1_apply,
    val_main_call0_v0_apply, val_main_cst_3_apply, val_main_call1_v1_apply, val_main_call1_v0_apply, val_main_cst_5_apply, d2_at]
  simp only [Ideal.hostNegf_def, Ideal.negf_def, Ideal.hostUnary_sqrt_def, Ideal.cmpf_def, Ideal.ofBits_def, Ideal.ofBits_zero_f32]

end Cert.ReferenceIdeal.RefValue

end
-- ==== Proof.KernelValue.lean ====
/-
  The idealized kernel's result array as one function of the feature matrix.

  Point (i, j) of the 8 × 8 grid writes back the [1024, 1024] tile at block (i, j) of the [8192, 8192] result. Its
  entry (p, q) is computed from rows 1024·i + p and 1024·j + q of the resident matrix, which is the feature matrix
  itself (the host's cast to bf16 is the identity on extended reals), and equals the reference's entry at
  (1024·i + p, 1024·j + q): off the diagonal for any rows, and where a row meets itself because the rows are real.
  The 64 tiles cover the result, so the array after the run is the reference's function of the feature matrix.
-/
import proofs.«144027_j18416819765837_2_alg».proof.Proof.BodyIdeal
import proofs.«144027_j18416819765837_2_alg».proof.Proof.TileAt
import proofs.«144027_j18416819765837_2_alg».proof.Proof.RefAt
import Idealize.ShloMosaic.Lib.Pipeline.Value
import Idealize.ShloMosaic.Lib.StableHlo.Run

set_option maxRecDepth 16384

noncomputable section

namespace Cert.KernelIdeal.TileValue

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-- The result as one function of the feature matrix: the reference's last stage. -/
abbrev G (X : S8192x512.Idx → EReal) : S8192x8192.Idx → EReal := Cert.ReferenceIdeal.Read.val_main_v21 (F := Ideal) X

theorem hz : (![0, 0] : Fin 2 → Nat) = fun _ => 0 := funext fun a => by fin_cases a <;> rfl

/-- The matrix the region finds resident is the feature matrix: the cast before the region changes no extended real. -/
theorem V_feat (c : Dev nD) : (V m c main_v0 : S8192x512.Idx → EReal) = m ((c : Thread nD τ).loc main_arg0) := by
  have e : (V m c main_v0 : S8192x512.Idx → EReal)
      = truncf (F := Ideal) .bf16 (m ((c : Thread nD τ).loc main_arg0) : FVec Ideal S8192x512 .f32) bitsLt_bf16_f32 := by
    dsimp only [Gen.V, Gen.hostOps0]; after_results
  rw [e]; rfl

/-- The printed index maps, decided over the 64 points: the resident block is the whole matrix, the result's block
    index is the point's pair of coordinates, each below 8. -/
theorem idx_facts : ∀ t : Fin cfg0.N, win0_0.index t (0 : Fin 2) = 0 ∧ win0_0.index t (1 : Fin 2) = 0
    ∧ win0_1.index t (0 : Fin 2) = (grid0.coords t 0).val ∧ win0_1.index t (1 : Fin 2) = (grid0.coords t 1).val
    ∧ (grid0.coords t 0).val < 8 ∧ (grid0.coords t 1).val < 8 :=
  (by decide +kernel : ∀ t : Fin grid0.N, win0_0.index t (0 : Fin 2) = 0 ∧ win0_0.index t (1 : Fin 2) = 0
    ∧ win0_1.index t (0 : Fin 2) = (grid0.coords t 0).val ∧ win0_1.index t (1 : Fin 2) = (grid0.coords t 1).val
    ∧ (grid0.coords t 0).val < 8 ∧ (grid0.coords t 1).val < 8)

/-- Every block of the result is some point's. -/
theorem idx_onto : ∀ (q0 q1 : Fin 8), ∃ t : Fin cfg0.N, win0_1.index t = ![q0.val, q1.val] :=
  (by decide +kernel : ∀ (q0 q1 : Fin 8), ∃ t : Fin grid0.N, win0_1.index t = ![q0.val, q1.val])

/-- Row p of the row tile at point i is row 1024·i₀ + p of the matrix. -/
theorem ldRow_at (i : grid0.Coords) (x0 : Vec Ideal S8192x512 .bf16) (p : Fin 1024) (k : Fin 512) (r : Fin 8192)
    (hr : r.val = 1024 * (i 0).val + p.val) : View.ld x0 (rRow i) (ix2 p k) = x0 (ix2 r k) := by
  show x0 ((rRow i).emb (ix2 p k)) = x0 (ix2 r k)
  refine congrArg x0 (funext fun a => Fin.ext ?_)
  match a with
  | ⟨0, _⟩ => show k0_off1 i 0 + 1 * p.val = r.val; rw [k0_off1_eq]; show 1024 * (i 0).val + 1 * p.val = r.val; omega
  | ⟨1, _⟩ => show k0_off1 i 1 + 1 * k.val = k.val; rw [k0_off1_eq]; show 0 + 1 * k.val = k.val; omega

/-- Row q of the column tile at point i is row 1024·i₁ + q of the matrix. -/
theorem ldCol_at (i : grid0.Coords) (x0 : Vec Ideal S8192x512 .bf16) (q : Fin 1024) (k : Fin 512) (r : Fin 8192)
    (hr : r.val = 1024 * (i 1).val + q.val) : View.ld x0 (rCol i) (ix2 q k) = x0 (ix2 r k) := by
  show x0 ((rCol i).emb (ix2 q k)) = x0 (ix2 r k)
  refine congrArg x0 (funext fun a => Fin.ext ?_)
  match a with
  | ⟨0, _⟩ => show k0_off2 i 0 + 1 * q.val = r.val; rw [k0_off2_eq]; show 1024 * (i 1).val + 1 * q.val = r.val; omega
  | ⟨1, _⟩ => show k0_off2 i 1 + 1 * k.val = k.val; rw [k0_off2_eq]; show 0 + 1 * k.val = k.val; omega

/-- The resident block at every point is the feature matrix. -/
theorem iblk_feat (c : Dev nD) (t : Fin cfg0.N) :
    (iblk m c 0 t : S8192x512.Idx → EReal) = m ((c : Thread nD τ).loc main_arg0) := by
  obtain ⟨e0, e1, -, -, -, -⟩ := idx_facts t
  funext y
  show V m c main_v0 (((cfg0.win 0).blk t).view.emb y) = _
  refine (congrFun (V_feat m c) _).trans (congrArg _ (funext fun a => Fin.ext ?_))
  match a with
  | ⟨0, _⟩ => show win0_0.index t (0 : Fin 2) * 8192 + 1 * (y 0).val = (y 0).val; rw [e0]; omega
  | ⟨1, _⟩ => show win0_0.index t (1 : Fin 2) * 512 + 1 * (y 1).val = (y 1).val; rw [e1]; omega

/-- THE TILE'S ENTRY: what point t leaves at (p, q) of its tile is the reference's entry at the global position. -/
theorem tile_entry (c : Dev nD) (hfin : ∀ j, ∃ x : ℝ, m ((c : Thread nD τ).loc main_arg0) j = (x : EReal))
    (t : Fin cfg0.N) (p q : Fin 1024) (r s : Fin 8192)
    (hr : r.val = 1024 * (grid0.coords t 0).val + p.val) (hs : s.val = 1024 * (grid0.coords t 1).val + q.val) :
    tileAt m c t (ix2 p q) = G (m ((c : Thread nD τ).loc main_arg0)) (ix2 r s) := by
  have ha : (fun k : Fin 512 => View.ld (iblk m c 0 t) (rRow (grid0.coords t)) (ix2 p k))
      = fun k : Fin 512 => m ((c : Thread nD τ).loc main_arg0) (ix2 r k) :=
    funext fun k => (ldRow_at _ _ p k r hr).trans (congrFun (iblk_feat m c t) _)
  have hb : (fun k : Fin 512 => View.ld (iblk m c 0 t) (rCol (grid0.coords t)) (ix2 q k))
      = fun k : Fin 512 => m ((c : Thread nD τ).loc main_arg0) (ix2 s k) :=
    funext fun k => (ldCol_at _ _ q k s hs).trans (congrFun (iblk_feat m c t) _)
  show _ = Cert.ReferenceIdeal.Read.val_main_v21 (F := Ideal) _ (ix2 r s)
  rw [Cert.ReferenceIdeal.RefValue.ref_at]
  unfold tileAt
  by_cases h1 : k0_cond1 (grid0.coords t) = 1#1
  · rw [if_pos h1]
    unfold outDiag
    rw [View.canon_unit_zero hz, pay2_at _ h1, ha, hb]
    have hi := coords_eq_of_cond1 _ h1
    by_cases hpq : p = q
    · rw [if_pos hpq]
      have hrs : s = r := Fin.ext (by rw [hr, hs, hpq, hi])
      rw [hrs]
      exact Cert.PairDist.diag_entry _ (fun k => hfin _) _
    · rw [if_neg hpq]
      exact Cert.PairDist.off_entry _ _ _
  · rw [if_neg h1]
    unfold outOff
    rw [View.canon_unit_zero hz, pay3_at, ha, hb]
    exact Cert.PairDist.off_entry _ _ _

/-- WHAT POINT t WRITES BACK is block t of `G` of the feature matrix. -/
theorem flushed_eq (c : Dev nD) (hfin : ∀ j, ∃ x : ℝ, m ((c : Thread nD τ).loc main_arg0) j = (x : EReal)) (t : Fin cfg0.N) :
    (dats m 0 c).flushed 1 t = ((cfg0.win 1).blk t).view.read (Elt Ideal) (G (m ((c : Thread nD τ).loc main_arg0))) := by
  show (cfg0.win 1).cut (grid0.coords t) ((dats m 0 c).after 1 t) = _
  rw [after0_1]
  obtain ⟨-, -, e2, e3, l0, l1⟩ := idx_facts t
  funext y
  obtain ⟨p, q, rfl⟩ : ∃ (p q : Fin 1024), y = ix2 p q := ⟨y 0, y 1, eq_ix2 y⟩
  show tileAt m c t (ix2 p q) = G (m ((c : Thread nD τ).loc main_arg0)) (((cfg0.win 1).blk t).view.emb (ix2 p q))
  have hp := p.isLt
  have hq := q.isLt
  have hemb : ((cfg0.win 1).blk t).view.emb (ix2 p q)
      = ix2 (⟨1024 * (grid0.coords t 0).val + p.val, by omega⟩ : Fin 8192) (⟨1024 * (grid0.coords t 1).val + q.val, by omega⟩ : Fin 8192) :=
    funext fun a => Fin.ext (by
      match a with
      | ⟨0, _⟩ => show win0_1.index t (0 : Fin 2) * 1024 + 1 * p.val = 1024 * (grid0.coords t 0).val + p.val; rw [e2]; omega
      | ⟨1, _⟩ => show win0_1.index t (1 : Fin 2) * 1024 + 1 * q.val = 1024 * (grid0.coords t 1).val + q.val; rw [e3]; omega)
  rw [hemb]
  exact tile_entry m c hfin t p q _ _ rfl rfl

/-- An index of the result is in point t's block iff each coordinate is in the block's range on its axis. -/
theorem mem_blk (t : Fin cfg0.N) (i : S8192x8192.Idx) :
    i ∈ ((cfg0.win 1).blk t).view.set ↔ ∀ a : Fin 2, win0_1.index t a * S1024x1024.size a ≤ (i a).val ∧ (i a).val < win0_1.index t a * S1024x1024.size a + S1024x1024.size a := by
  show i ∈ ((View.whole main_v1).slice (win0_1.rect t)).set ↔ _
  rw [View.set_slice_whole, Rect.mem_set_unit]
  exact Iff.rfl

/-- The tiles cover the result: the point that covers (r, s) is the one at block (r / 1024, s / 1024). -/
theorem cover (i : S8192x8192.Idx) : ∃ t : Fin cfg0.N, (cfg0.win 1).flush t = true ∧ i ∈ ((cfg0.win 1).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_1.index t (0 : Fin 2) = (i 0).val / 1024 := congrFun ht 0
  have q1 : win0_1.index t (1 : Fin 2) = (i 1).val / 1024 := congrFun ht 1
  refine ⟨t, flush0_1 t, ?_⟩
  rw [mem_blk]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 1024 ≤ (i 1).val ∧ (i 1).val < win0_1.index t (1 : Fin 2) * 1024 + 1024; omega

/-- THE ARRAY after the run: `G` of the feature matrix. -/
theorem final (c : Dev nD) (hfin : ∀ j, ∃ x : ℝ, m ((c : Thread nD τ).loc main_arg0) j = (x : EReal)) :
    (dats m 0 c).arrAt 1 cfg0.N = G (m ((c : Thread nD τ).loc main_arg0)) :=
  (dats m 0 c).arrAt_eq_of_cover 1 (G (m ((c : Thread nD τ).loc main_arg0))) (fun t _ => flushed_eq m c hfin t) cover

/-- The kernel's run, read: from a memory whose feature matrix is real, every weakly fair execution terminates with
    the result at `G` of the feature matrix and the feature matrix unchanged. -/
theorem run (hfin : ∀ (c : Dev nD) j, ∃ x : ℝ, m ((c : Thread nD τ).loc main_arg0) j = (x : EReal)) :
    θ_run defs (onTc (τ := τ) (main (F := Ideal))) ⟨m, fun _ => 0, ρ⟩ fun r => ∀ c : Dev nD,
      r.2.mem ((c : Thread nD τ).loc main_v1) = G (m ((c : Thread nD τ).loc main_arg0))
      ∧ r.2.mem ((c : Thread nD τ).loc main_arg0) = m ((c : Thread nD τ).loc main_arg0) :=
  (θ_run defs _ _).mono (fun r h c => ⟨((h c).1 1).trans (final m c (hfin c)),
      ((h c).2 main_arg0 (Pipeline.mem_restRefs_of main_arg0 (by decide) (by decide))).trans (V_main_arg0 m c)⟩)
    (run_main m ρ)

end Cert.KernelIdeal.TileValue

end
-- ==== Proof.Finite.lean ====
/-
  What the precondition says of the feature matrix: every entry is a real number.

  The printed predicate is the conjunction, over all 8192 × 512 entries, of |x| < +∞, where |x| = max(x, −x) on the
  extended reals and the constant's pattern denotes +∞. An extended real whose absolute value is below +∞ is neither
  infinity.
-/
import proofs.«144027_j18416819765837_2_alg».proof.Proof.Gen.Pre_finite_inputs
import Idealize.ShloMosaic.Lib.ReduceAll
import Idealize.ShloMosaic.Lib.ValueIdx
import Idealize.ShloMosaic.PureOps.Ideal.Laws

noncomputable section

namespace Cert.PreFinite

open Idealize.ShloMosaic Cert.Pre_finite_inputs Cert.Pre_finite_inputs.Gen

/-- The pattern of +∞. -/
theorem ofBits_inf : Ideal.ofBits .f32 0x7F800000#32 = ⊤ := by simp [Ideal.ofBits, Ideal.ieee]

/-- An extended real with max(x, −x) < +∞ is a real. -/
theorem real_of_abs_lt_top (x : EReal) (h : max x (-x) < ⊤) : ∃ r : ℝ, x = (r : EReal) := by
  induction x using EReal.rec with
  | bot => simp at h
  | coe r => exact ⟨r, rfl⟩
  | top => simp at h

instance : Subsingleton S_.Idx := ⟨fun a b => funext fun d => d.elim0⟩

/-- Under the precondition every entry of the feature matrix is a real. -/
theorem finite_of_pre (X : FVec Ideal S8192x512 .f32) (h : Cert.Pre_finite_inputs.fn (F := Ideal) X = fun _ => 1#1)
    (i : S8192x512.Idx) : ∃ r : ℝ, X i = (r : EReal) := by
  have h0 := congrFun h ValueIdx.ix0
  dsimp only [fn] at h0
  have hi := Host.reduce_andi_all _ _ _ _ _ h0 i
  have hi' : Ideal.cmp .olt (max (X i) (-(X i))) (Ideal.ofBits .f32 0x7F800000#32) = 1#1 := hi
  rw [ofBits_inf] at hi'
  apply real_of_abs_lt_top
  by_contra hn
  simp [Ideal.cmp, hn] at hi'

end Cert.PreFinite

end
-- ==== Proof.lean ====
/-
  Pairwise negative Euclidean distances of the 8192 rows of a feature matrix: a tiled kernel against the plain formula.

  Both programs compute, for rows x_r and x_c, d² = max(|x_r|² + |x_c|² − 2·⟨x_r, x_c⟩, 0) and return minus its root.
  The kernel casts the matrix to bf16 first (no change on extended reals), works tile by tile on an 8 × 8 grid, and on
  the eight diagonal tiles overwrites the entries with r = c by zero before negating; the reference guards the root,
  returning 0 where d² is not positive. On the extended reals the guard changes nothing, since d² ≥ 0 and √0 = 0, so
  off the diagonal the two agree for every input. On the diagonal the kernel's 0 must meet the reference's
  −(guarded root of max(|x_r|² + |x_r|² − 2·|x_r|², 0)), which is 0 exactly because the precondition makes |x_r|² a
  real number. The ideal pass rewrote nothing, so the kernel's idealization is its own text read on the extended reals.
-/
import proofs.«144027_j18416819765837_2_alg».proof.Defs
import proofs.«144027_j18416819765837_2_alg».proof.Proof.Gen.Kernel
import proofs.«144027_j18416819765837_2_alg».proof.Proof.Gen.KernelIdeal
import proofs.«144027_j18416819765837_2_alg».proof.Proof.Gen.ReferenceIdeal
import proofs.«144027_j18416819765837_2_alg».proof.Proof.Gen.ReferenceIdeal.Read
import proofs.«144027_j18416819765837_2_alg».proof.Proof.Gen.Pre_finite_inputs
import proofs.«144027_j18416819765837_2_alg».proof.Proof.BodyBits
import proofs.«144027_j18416819765837_2_alg».proof.Proof.BodyIdeal
import proofs.«144027_j18416819765837_2_alg».proof.Proof.KernelValue
import proofs.«144027_j18416819765837_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs to the end, faults nowhere, and leaves the feature matrix as it was. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals, from memories agreeing on a real feature matrix, both programs end with the same
    [8192, 8192] array: the reference's function of the feature matrix. -/
theorem algebraic : Cert.algebraic_KernelIdeal_ReferenceIdeal := by
  intro m ρ m' ρ' hpre hagree
  have hfin : ∀ (c : Dev Cert.KernelIdeal.nD) j, ∃ x : ℝ,
      m ((c : Thread Cert.KernelIdeal.nD Cert.KernelIdeal.τ).loc Cert.KernelIdeal.main_arg0) j = (x : EReal) :=
    fun c j => Cert.PreFinite.finite_of_pre _ (hpre c) j
  refine ⟨fun c => Cert.KernelIdeal.TileValue.G (m ((c : Thread Cert.KernelIdeal.nD Cert.KernelIdeal.τ).loc Cert.KernelIdeal.main_arg0)),
    Cert.KernelIdeal.TileValue.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
